-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x1024x4096 : Shape := ⟨3, ![8, 1024, 4096]⟩
abbrev S8x4096x1024 : Shape := ⟨3, ![8, 4096, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x4096x1024 : S_.BroadcastsInDim S8x4096x1024 (![] : Fin 0 → Fin S8x4096x1024.rank)
  reducesTo_S8x4096x1024_S_d0_1_2 : S8x4096x1024.ReducesTo [0, 1, 2] S_

variable [Facts]

def fn {F : FTy → Type} [FloatOps F] (main_arg0 : FVec F S8x2048x1024 .f32) (main_arg1 : FVec F S8x1024x4096 .f32) (main_arg2 : FVec F S8x4096x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x1024x4096 .f32 := Host.absf main_arg1
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S8x4096x1024 .f32 := Host.absf main_arg2
  let main_cst_2 : FVec F S_ .f32 := constant S_ .f32 0x7F800000#32
  let main_v10 : FVec F S8x4096x1024 .f32 := broadcastInDim S8x4096x1024 ![] bcast_S_S8x4096x1024 main_cst_2
  let main_v11 : IVec S8x4096x1024 1 := cmpf .olt main_v9 main_v10
  let main_c_3 : IVec S_ 1 := constantI S_ 1 1#1
  let main_v12 : IVec S_ 1 := (fun x v => Host.reduce IntOp.andi x v reducesTo_S8x4096x1024_S_d0_1_2 h_S_) main_v11 main_c_3
  let main_v13 : IVec S_ 1 := andi main_v8 main_v12
  main_v13
-- ==== Kernel.lean ====
abbrev S8x2048x1024 : Shape := ⟨3, ![8, 2048, 1024]⟩
abbrev S8x1024x4096 : Shape := ⟨3, ![8, 1024, 4096]⟩
abbrev S8x4096x1024 : Shape := ⟨3, ![8, 4096, 1024]⟩
abbrev S1x2048x1024 : Shape := ⟨3, ![1, 2048, 1024]⟩
abbrev S1x1024x512 : Shape := ⟨3, ![1, 1024, 512]⟩
abbrev S1x512x1024 : Shape := ⟨3, ![1, 512, 1024]⟩
abbrev S2048x1024 : Shape := ⟨2, ![2048, 1024]⟩
abbrev S1024x512 : Shape := ⟨2, ![1024, 512]⟩
abbrev S2048x512 : Shape := ⟨2, ![2048, 512]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S8x1024x4096, .f32⟩
  | .hbm, ⟨2, _⟩ => ⟨S8x4096x1024, .f32⟩
  | .hbm, ⟨3, _⟩ => ⟨S8x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x512x1024, .f32⟩
  | .local _ .vmem, ⟨5, _⟩ => ⟨S1x512x1024, .f32⟩
  | .local _ .vmem, ⟨6, _⟩ => ⟨S1x2048x1024, .f32⟩
  | .local _ .vmem, ⟨7, _⟩ => ⟨S1x2048x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S2048x1024_S1x2048x1024 : S2048x1024.ShapeCasts S1x2048x1024
  bitsLt_bf16_f32 : FTy.bits .bf16 < FTy.bits .f32
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  dot_S2048x1024_S1024x512_S2048x512_1_0_0_1_n_n_wf : DotDims.WF S2048x1024 S1024x512 S2048x512 [1] [0] [0] [1] [] []
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x1024.size a
  hwx0_0 : ∀ i : grid0.Coords, EltTy.bits .f32 = 32 ∨ (Rect.block (s := S8x2048x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S8x1024x4096.size a
  hwx0_1 : ∀ i : grid0.Coords, EltTy.bits .f32 = 32 ∨ (Rect.block (s := S8x1024x4096) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S8x4096x1024.size a
  hwx0_2 : ∀ i : grid0.Coords, EltTy.bits .f32 = 32 ∨ (Rect.block (s := S8x4096x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1024.size a ≤ S8x2048x1024.size a
  hwx0_3 : ∀ i : grid0.Coords, EltTy.bits .f32 = 32 ∨ (Rect.block (s := S8x2048x1024) S1x2048x1024.size (cc0_transform_3 i) (hinb0_3 i)).WholeWords (EltTy.packing .f32)

variable [Facts₀]

def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S8x1024x4096 : Shape := ⟨3, ![8, 1024, 4096]⟩
abbrev S8x4096x1024 : Shape := ⟨3, ![8, 4096, 1024]⟩
abbrev S8x2048x4096 : Shape := ⟨3, ![8, 2048, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1024x4096, .f32⟩
  | .hbm, ⟨2, _⟩ => ⟨S8x4096x1024, .f32⟩
  | .hbm, ⟨3, _⟩ => ⟨S8x2048x4096, .f32⟩
  | .hbm, ⟨4, _⟩ => ⟨S_, .f32⟩
  | .hbm, ⟨5, _⟩ => ⟨S8x2048x4096, .f32⟩
  | .hbm, ⟨6, _⟩ => ⟨S8x2048x4096, .f32⟩
  | .hbm, ⟨7, _⟩ => ⟨S_, .f32⟩
  | .hbm, ⟨8, _⟩ => ⟨S8x2048x4096, .f32⟩
  | .hbm, ⟨9, _⟩ => ⟨S8x2048x4096, .f32⟩
  | .hbm, ⟨10, _⟩ => ⟨S8x2048x4096, .f32⟩
  | .hbm, ⟨11, _⟩ => ⟨S8x2048x4096, .f32⟩
  | .hbm, ⟨12, _⟩ => ⟨S8x2048x4096, .f32⟩
  | .hbm, ⟨13, _⟩ => ⟨S_, .f32⟩
  | .hbm, ⟨14, _⟩ => ⟨S8x2048x4096, .f32⟩
  | .hbm, ⟨15, _⟩ => ⟨S8x2048x4096, .f32⟩
  | .hbm, ⟨16, _⟩ => ⟨S8x2048x4096, .f32⟩
  | .hbm, ⟨17, _⟩ => ⟨S_, .f32⟩
  | .hbm, ⟨18, _⟩ => ⟨S8x2048x4096, .f32⟩
  | .hbm, ⟨19, _⟩ => ⟨S8x2048x4096, .f32⟩
  | .hbm, ⟨20, _⟩ => ⟨S8x2048x4096, .f32⟩
  | .hbm, ⟨21, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S8x2048x4096 : S_.BroadcastsInDim S8x2048x4096 (![] : Fin 0 → Fin S8x2048x4096.rank)
  dot_S8x2048x1024_S8x1024x4096_S8x2048x4096_2_1_1_2_0_0_wf : DotDims.WF S8x2048x1024 S8x1024x4096 S8x2048x4096 [2] [1] [1] [2] [0] [0]
  dot_S8x2048x4096_S8x4096x1024_S8x2048x1024_2_1_1_2_0_0_wf : DotDims.WF S8x2048x4096 S8x4096x1024 S8x2048x1024 [2] [1] [1] [2] [0] [0]

variable [Facts₀]

def dot_S8x2048x1024_S8x1024x4096_S8x2048x4096_2_1_1_2_0_0 : DotDims S8x2048x1024 S8x1024x4096 S8x2048x4096 where
  lhsContracting := [2]
  rhsContracting := [1]
  lhsNonContracting := [1]
  rhsNonContracting := [2]
  lhsBatch := [0]
  rhsBatch := [0]
  wf := dot_S8x2048x1024_S8x1024x4096_S8x2048x4096_2_1_1_2_0_0_wf
def dot_S8x2048x4096_S8x4096x1024_S8x2048x1024_2_1_1_2_0_0 : DotDims S8x2048x4096 S8x4096x1024 S8x2048x1024 where
  lhsContracting := [2]
  rhsContracting := [1]
  lhsNonContracting := [1]
  rhsNonContracting := [2]
  lhsBatch := [0]
  rhsBatch := [0]
  wf := dot_S8x2048x4096_S8x4096x1024_S8x2048x1024_2_1_1_2_0_0_wf

class Facts : Prop extends Facts₀ where

variable [Facts]
-- ==== Proof.Spec.lean ====
/-
  The mathematics both programs compute, stated with neither program in sight.

  For each expert `e`, row `t` and output column `h` the result is

      out[e, t, h] = ∑ f < 4096, gelu (∑ k < 1024, x[e, t, k] · w1[e, k, f]) · w2[e, f, h]

  on the extended reals, `gelu` being the tanh approximation
  `(½·u) · (1 + tanh (c₁ · (u + ((c₂·u)·u)·u)))` with the two programs' own four float literals, kept as
  their bit patterns (the same words on both sides, so they are never evaluated).

  The hidden axis of 4096 columns is cut into 8 tiles of 512: column `f` is `512·s + j` for exactly one tile `s < 8`
  and offset `j < 512`. A sum over the columns is therefore the sum over the tiles of the sums over the offsets
  (`sum_cols`); this only regroups a finite sum in a commutative monoid, so it holds on the extended reals with no
  finiteness assumption (addition there is commutative and associative even at the infinities).
-/
import Idealize.ShloMosaic.PureOps.Ideal
import Idealize.ShloMosaic.Lib.ValueIdx

noncomputable section

namespace Cert.ExpertMlp

open Idealize.ShloMosaic Idealize.ShloMosaic.ValueIdx

/-- The tanh approximation of GELU on the extended reals, in the order of operations both programs use:
    `(½·u) · (1 + tanh (c₁ · (u + ((c₂·u)·u)·u)))`. -/
def gelu (u : EReal) : EReal :=
  (Ideal.ofBits .f32 0x3F000000#32 * u) *
    (Ideal.ofBits .f32 0x3F800000#32 +
      Ideal.tanh (Ideal.ofBits .f32 0x3F4C422A#32 * (u + ((Ideal.ofBits .f32 0x3D372713#32 * u) * u) * u)))

/-- What ONE tile of 512 hidden columns contributes to the output entry `(t, h)` of an expert, from that expert's
    rows `x0` ([1, 2048, 1024]), the tile's columns of the first weight `x1` ([1, 1024, 512]) and the tile's rows of
    the second weight `x2` ([1, 512, 1024]). -/
def tileTerm (x0 : (⟨3, ![1, 2048, 1024]⟩ : Shape).Idx → EReal) (x1 : (⟨3, ![1, 1024, 512]⟩ : Shape).Idx → EReal)
    (x2 : (⟨3, ![1, 512, 1024]⟩ : Shape).Idx → EReal) (t : Fin 2048) (h : Fin 1024) : EReal :=
  ∑ j : Fin 512, gelu (∑ k : Fin 1024, x0 (ix3 (0 : Fin 1) t k) * x1 (ix3 (0 : Fin 1) k j)) * x2 (ix3 (0 : Fin 1) j h)

/-- The whole expert MLP at `(e, t, h)`: the hidden activation summed against the second weight over all 4096
    hidden columns. -/
def mlp (x : (⟨3, ![8, 2048, 1024]⟩ : Shape).Idx → EReal) (w1 : (⟨3, ![8, 1024, 4096]⟩ : Shape).Idx → EReal)
    (w2 : (⟨3, ![8, 4096, 1024]⟩ : Shape).Idx → EReal) (e : Fin 8) (t : Fin 2048) (h : Fin 1024) : EReal :=
  ∑ f : Fin 4096, gelu (∑ k : Fin 1024, x (ix3 e t k) * w1 (ix3 e k f)) * w2 (ix3 e f h)

/-- Hidden column `512·s + j`: offset `j` of tile `s`. -/
def col (s : Fin 8) (j : Fin 512) : Fin 4096 := ⟨512 * s.val + j.val, by omega⟩

/-- A sum over the 4096 hidden columns is the sum over the 8 tiles of the sums over each tile's 512 columns. -/
theorem sum_cols {β : Type*} [AddCommMonoid β] (g : Fin 4096 → β) :
    ∑ f : Fin 4096, g f = ∑ s : Fin 8, ∑ j : Fin 512, g (col s j) := by
  have e := Equiv.sum_comp (finProdFinEquiv (m := 8) (n := 512)) g
  rw [Fintype.sum_prod_type] at e
  rw [← e]
  refine Finset.sum_congr rfl fun s _ => Finset.sum_congr rfl fun j _ => congrArg g (Fin.ext ?_)
  show j.val + 512 * s.val = 512 * s.val + j.val
  omega

/-- So the MLP is the sum, over the 8 tiles, of each tile's hidden activations against its rows of `w2`. -/
theorem mlp_eq_tiles (x : (⟨3, ![8, 2048, 1024]⟩ : Shape).Idx → EReal) (w1 : (⟨3, ![8, 1024, 4096]⟩ : Shape).Idx → EReal)
    (w2 : (⟨3, ![8, 4096, 1024]⟩ : Shape).Idx → EReal) (e : Fin 8) (t : Fin 2048) (h : Fin 1024) :
    mlp x w1 w2 e t h
      = ∑ s : Fin 8, ∑ j : Fin 512,
          gelu (∑ k : Fin 1024, x (ix3 e t k) * w1 (ix3 e k (col s j))) * w2 (ix3 e (col s j) h) :=
  sum_cols fun f => gelu (∑ k : Fin 1024, x (ix3 e t k) * w1 (ix3 e k f)) * w2 (ix3 e f h)

end Cert.ExpertMlp

end
-- ==== Proof.RefSide.lean ====
/-
  The reference, read at an index, is the expert MLP of the specification.

  The reference program is a straight line: one batched product `x · w1` (contracting the 1024 input features), the
  tanh-approximate GELU written out operation by operation over the [8, 2048, 4096] hidden array, and a second
  batched product with `w2` (contracting the 4096 hidden columns). Read at an output index `(e, t, h)` its last
  stage is `∑ f, gelu (∑ k, x[e,t,k] · w1[e,k,f]) · w2[e,f,h]`: the first product's operand indices at hidden index
  `(e, t, f)` are `(e, t, k)` and `(e, k, f)`, the second's at output index `(e, t, h)` are `(e, t, f)` and
  `(e, f, h)`, and the GELU is pointwise, with the host's tanh the same function of an extended real as the
  specification's.
-/
import proofs.«115433_j21741124452873_2_alg».proof.Proof.Gen.ReferenceIdeal.Read
import proofs.«115433_j21741124452873_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.ExpertMlp

/-- The first product's left operand index at hidden index `j` and contraction index `k` is `(j₀, j₁, k)`. -/
theorem lidx_v0 (j : S8x2048x4096.Idx) (k : Fin 1024) : lidx_main_v0 j k = ix3 (j 0) (j 1) k :=
  funext fun a => by match a with | ⟨0, _⟩ => rfl | ⟨1, _⟩ => rfl | ⟨2, _⟩ => rfl

/-- … and its right operand index is `(j₀, k, j₂)`. -/
theorem ridx_v0 (j : S8x2048x4096.Idx) (k : Fin 1024) : ridx_main_v0 j k = ix3 (j 0) k (j 2) :=
  funext fun a => by match a with | ⟨0, _⟩ => rfl | ⟨1, _⟩ => rfl | ⟨2, _⟩ => rfl

/-- The second product's left operand index at output index `i` and hidden column `f` is `(i₀, i₁, f)`. -/
theorem lidx_v14 (i : S8x2048x1024.Idx) (f : Fin 4096) : lidx_main_v14 i f = ix3 (i 0) (i 1) f :=
  funext fun a => by match a with | ⟨0, _⟩ => rfl | ⟨1, _⟩ => rfl | ⟨2, _⟩ => rfl

/-- … and its right operand index is `(i₀, f, i₂)`. -/
theorem ridx_v14 (i : S8x2048x1024.Idx) (f : Fin 4096) : ridx_main_v14 i f = ix3 (i 0) f (i 2) :=
  funext fun a => by match a with | ⟨0, _⟩ => rfl | ⟨1, _⟩ => rfl | ⟨2, _⟩ => rfl

/-- The hidden activation: the reference's GELU stage at `(e, t, f)` is `gelu` of the first product there. -/
theorem hidden_eq (x0 : (⟨S8x2048x1024, .f32⟩ : BufTy).Contents (Elt Ideal)) (x1 : (⟨S8x1024x4096, .f32⟩ : BufTy).Contents (Elt Ideal))
    (e : Fin 8) (t : Fin 2048) (f : Fin 4096) :
    val_main_v13 (F := Ideal) x0 x1 (ix3 e t f) = gelu (∑ k : Fin 1024, x0 (ix3 e t k) * x1 (ix3 e k f)) := by
  simp only [val_main_v13_apply, val_main_v2_apply, val_main_v12_apply, val_main_v1_apply, val_main_cst_apply,
    val_main_v11_apply, val_main_cst_2_apply, val_main_v10_apply, val_main_v9_apply, val_main_v8_apply,
    val_main_cst_1_apply, val_main_v7_apply, val_main_v6_apply, val_main_v5_apply, val_main_v4_apply, val_main_v3_apply,
    val_main_cst_0_apply, val_main_v0_apply, lidx_v0, ridx_v0, Ideal.mulf_def, Ideal.addf_def, Ideal.hostUnary_tanh_def,
    Ideal.ofBits_def]
  rfl

/-- The reference's result stage at an output index is the specification's MLP there. -/
theorem stage_eq_mlp (x0 : (⟨S8x2048x1024, .f32⟩ : BufTy).Contents (Elt Ideal)) (x1 : (⟨S8x1024x4096, .f32⟩ : BufTy).Contents (Elt Ideal))
    (x2 : (⟨S8x4096x1024, .f32⟩ : BufTy).Contents (Elt Ideal)) (i : S8x2048x1024.Idx) :
    val_main_v14 (F := Ideal) x0 x1 x2 i = mlp x0 x1 x2 (i 0) (i 1) (i 2) := by
  rw [val_main_v14_apply]
  unfold mlp
  refine Finset.sum_congr rfl fun f _ => ?_
  rw [lidx_v14, ridx_v14]
  exact congrArg (fun z => z * x2 (ix3 (i 0) f (i 2))) (hidden_eq x0 x1 (i 0) (i 1) f)

end Cert.ReferenceIdeal.RefValue

end
-- ==== Proof.Payload.lean ====
/-
  The kernel body's arithmetic, read at an index, at the extended reals.

  At one grid point the body holds an expert's rows `x0` ([1, 2048, 1024]), one tile of 512 columns of the first
  weight `x1` ([1, 1024, 512]), the matching 512 rows of the second weight `x2` ([1, 512, 1024]) and the output
  block as the point before left it, `acc` ([1, 2048, 1024]). It stores

      acc[t, h] + ∑ j < 512, gelu (∑ k < 1024, x0[t, k] · x1[k, j]) · x2[j, h]

  — the specification's `tileTerm` added to the accumulator. The changes of float format on the way into the two
  matrix products are the identity on the extended reals, a matrix product into a zero accumulator is the plain sum of
  products over the contracted axis, and the leading unit axis is only dropped and put back. At the first point of
  an expert the accumulator is the zero block.
-/
import proofs.«115433_j21741124452873_2_alg».proof.Proof.Gen.KernelIdeal.Skeleton
import proofs.«115433_j21741124452873_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx
open Cert.ExpertMlp

/-- The first matrix product's dimension numbers: [2048, 1024] by [1024, 512]. -/
abbrev D1 : DotDims S2048x1024 S1024x512 S2048x512 := dot_S2048x1024_S1024x512_S2048x512_1_0_0_1_n_n
/-- The second matrix product's dimension numbers: [2048, 512] by [512, 1024]. -/
abbrev D2 : DotDims S2048x512 S512x1024 S2048x1024 := dot_S2048x512_S512x1024_S2048x1024_1_0_0_1_n_n

/-! ## The operand indices of the two products -/

theorem lhs1_0 (j : S2048x512.Idx) (q : D1.contr.Idx) : (D1.lhsIdx j q 0).val = (j 0).val := by
  unfold DotDims.lhsIdx
  rw [dif_neg (show ¬(0 : Fin S2048x1024.rank) ∈ D1.lhsBatch by decide), dif_pos (show (0 : Fin S2048x1024.rank) ∈ D1.lhsNonContracting by decide)]
  rfl
theorem lhs1_1 (j : S2048x512.Idx) (q : D1.contr.Idx) : (D1.lhsIdx j q 1).val = (q ⟨0, by decide⟩).val :=
  D1.lhsIdx_val_of_single rfl j q
theorem rhs1_0 (j : S2048x512.Idx) (q : D1.contr.Idx) : (D1.rhsIdx j q 0).val = (q ⟨0, by decide⟩).val :=
  D1.rhsIdx_val_of_single rfl j q
theorem rhs1_1 (j : S2048x512.Idx) (q : D1.contr.Idx) : (D1.rhsIdx j q 1).val = (j 1).val := by
  unfold DotDims.rhsIdx
  rw [dif_neg (show ¬(1 : Fin S1024x512.rank) ∈ D1.rhsBatch by decide), dif_pos (show (1 : Fin S1024x512.rank) ∈ D1.rhsNonContracting by decide)]
  rfl

theorem lhs2_0 (j : S2048x1024.Idx) (q : D2.contr.Idx) : (D2.lhsIdx j q 0).val = (j 0).val := by
  unfold DotDims.lhsIdx
  rw [dif_neg (show ¬(0 : Fin S2048x512.rank) ∈ D2.lhsBatch by decide), dif_pos (show (0 : Fin S2048x512.rank) ∈ D2.lhsNonContracting by decide)]
  rfl
theorem lhs2_1 (j : S2048x1024.Idx) (q : D2.contr.Idx) : (D2.lhsIdx j q 1).val = (q ⟨0, by decide⟩).val :=
  D2.lhsIdx_val_of_single rfl j q
theorem rhs2_0 (j : S2048x1024.Idx) (q : D2.contr.Idx) : (D2.rhsIdx j q 0).val = (q ⟨0, by decide⟩).val :=
  D2.rhsIdx_val_of_single rfl j q
theorem rhs2_1 (j : S2048x1024.Idx) (q : D2.contr.Idx) : (D2.rhsIdx j q 1).val = (j 1).val := by
  unfold DotDims.rhsIdx
  rw [dif_neg (show ¬(1 : Fin S512x1024.rank) ∈ D2.rhsBatch by decide), dif_pos (show (1 : Fin S512x1024.rank) ∈ D2.rhsNonContracting by decide)]
  rfl

/-! ## The two products at an index -/

/-- The first product into the zero accumulator, at `(r, c)`: the sum over the 1024 contracted coordinates. -/
theorem mm1_apply (lhs : FVec Ideal S2048x1024 .bf16) (rhs : FVec Ideal S1024x512 .bf16) (r : Fin 2048) (c : Fin 512) :
    matmul D1 none lhs rhs (constant (F := Ideal) S2048x512 .f32 0x00000000#32) (ix2 r c)
      = ∑ k : Fin 1024, lhs (ix2 r k) * rhs (ix2 k c) := by
  refine (Ideal.matmul_constant_zero_apply D1 none lhs rhs (ix2 r c)).trans ?_
  rw [← Equiv.sum_comp (contrEquiv1 D1 1024 rfl rfl).symm]
  refine Finset.sum_congr rfl fun k _ => ?_
  have hk := contrEquiv1_symm_val D1 1024 rfl rfl k
  have el : D1.lhsIdx (ix2 r c) ((contrEquiv1 D1 1024 rfl rfl).symm k) = ix2 r k := funext fun a => Fin.ext (by
    match a with
    | ⟨0, _⟩ => exact lhs1_0 _ _
    | ⟨1, _⟩ => exact (lhs1_1 _ _).trans hk)
  have er : D1.rhsIdx (ix2 r c) ((contrEquiv1 D1 1024 rfl rfl).symm k) = ix2 k c := funext fun a => Fin.ext (by
    match a with
    | ⟨0, _⟩ => exact (rhs1_0 _ _).trans hk
    | ⟨1, _⟩ => exact rhs1_1 _ _)
  rw [el, er]

/-- The second product into the zero accumulator, at `(r, c)`: the sum over the tile's 512 contracted coordinates. -/
theorem mm2_apply (lhs : FVec Ideal S2048x512 .bf16) (rhs : FVec Ideal S512x1024 .bf16) (r : Fin 2048) (c : Fin 1024) :
    matmul D2 none lhs rhs (constant (F := Ideal) S2048x1024 .f32 0x00000000#32) (ix2 r c)
      = ∑ k : Fin 512, lhs (ix2 r k) * rhs (ix2 k c) := by
  refine (Ideal.matmul_constant_zero_apply D2 none lhs rhs (ix2 r c)).trans ?_
  rw [← Equiv.sum_comp (contrEquiv1 D2 512 rfl rfl).symm]
  refine Finset.sum_congr rfl fun k _ => ?_
  have hk := contrEquiv1_symm_val D2 512 rfl rfl k
  have el : D2.lhsIdx (ix2 r c) ((contrEquiv1 D2 512 rfl rfl).symm k) = ix2 r k := funext fun a => Fin.ext (by
    match a with
    | ⟨0, _⟩ => exact lhs2_0 _ _
    | ⟨1, _⟩ => exact (lhs2_1 _ _).trans hk)
  have er : D2.rhsIdx (ix2 r c) ((contrEquiv1 D2 512 rfl rfl).symm k) = ix2 k c := funext fun a => Fin.ext (by
    match a with
    | ⟨0, _⟩ => exact (rhs2_0 _ _).trans hk
    | ⟨1, _⟩ => exact rhs2_1 _ _)
  rw [el, er]

/-! ## The stored blocks at an index -/

/-- The pointwise tanh at an index. -/
theorem tanh_apply {s : Shape} {φ : FTy} (a : FVec Ideal s φ) (i : s.Idx) : tanh a i = Ideal.tanh (a i) := rfl

/-- The reset block is zero everywhere. -/
theorem pay1_apply (t : Fin 2048) (h : Fin 1024) : k0_pay1 (F := Ideal) (ix3 (0 : Fin 1) t h) = 0 := by
  unfold k0_pay1
  refine (shapeCast_ab_1ab_apply _ _ (0 : Fin 1) t h).trans ?_
  exact Ideal.ofBits_zero_f32

/-- The block the body stores, at `(t, h)`: the accumulator there plus the tile's term. -/
theorem pay2_apply (x0 : Vec Ideal S1x2048x1024 .f32) (x1 : Vec Ideal S1x1024x512 .f32) (x2 : Vec Ideal S1x512x1024 .f32)
    (acc : Vec Ideal S1x2048x1024 .f32) (t : Fin 2048) (h : Fin 1024) :
    k0_pay2 x0 x1 x2 acc (ix3 (0 : Fin 1) t h) = acc (ix3 (0 : Fin 1) t h) + tileTerm x0 x1 x2 t h := by
  unfold k0_pay2
  refine (shapeCast_ab_1ab_apply _ _ (0 : Fin 1) t h).trans ?_
  simp only [addf_apply, mulf_apply, truncf_apply, broadcast_apply, tanh_apply, mm1_apply, mm2_apply,
    shapeCast_1ab_ab_apply]
  rfl

end Cert.KernelIdeal.Payload

end
-- ==== Proof.Blocks.lean ====
/-
  The input blocks of a grid point, read off the argument arrays.

  The grid is 8 experts by 8 tiles, the tile the fast axis: point `t < 64` is expert `t / 8`, tile `t % 8`. At that
  point the three input windows hold
    * rows:     x [t/8, r, k]                for the whole [2048, 1024] slab of the expert,
    * columns:  w1[t/8, k, 512·(t%8) + j]    for the tile's 512 hidden columns,
    * rows:     w2[t/8, 512·(t%8) + j, h]    for the tile's 512 hidden rows,
  because an entry of a window's block sits in the array at (block index × block size + its place in the block) on
  every axis, and the printed index maps give block indices (t/8, 0, 0), (t/8, 0, t%8) and (t/8, t%8, 0).
-/
import proofs.«115433_j21741124452873_2_alg».proof.Proof.Gen.KernelIdeal.Frame
import proofs.«115433_j21741124452873_2_alg».proof.Proof.Spec
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.ExpertMlp

variable (m : (ℓ : Loc nD τ sig) → Buf (Elt Ideal) ℓ)

/-- The printed index maps of the three input windows, decided once over the 64 grid points. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = 0 ∧ win0_1.index t (2 : Fin 3) = t.val % 8
    ∧ win0_2.index t (0 : Fin 3) = t.val / 8 ∧ win0_2.index t (1 : Fin 3) = t.val % 8 ∧ win0_2.index t (2 : Fin 3) = 0 :=
  (by decide +kernel : ∀ t : Fin grid0.N, _)

/-- The rows window at point `t`: entry `(r, k)` of its block is `x[e, r, k]` for the point's expert `e`. -/
theorem rows_apply (c : Dev nD) (t : Fin cfg0.N) (e : Fin 8) (he : t.val / 8 = e.val) (r : Fin 2048) (k : Fin 1024) :
    (iblk m c 0 t : Vec Ideal S1x2048x1024 .f32) (ix3 (0 : Fin 1) r k)
      = m ((c : Thread nD τ).loc main_arg0) (ix3 e r k) := by
  obtain ⟨e0, e1, e2, -⟩ := idx_facts t
  show m ((c : Thread nD τ).loc main_arg0) (((cfg0.win 0).blk t).view.emb (ix3 (0 : Fin 1) r k)) = _
  refine congrArg (m ((c : Thread nD τ).loc main_arg0)) (funext fun a => Fin.ext ?_)
  match a with
  | ⟨0, _⟩ => show win0_0.index t (0 : Fin 3) * 1 + 1 * 0 = e.val; omega
  | ⟨1, _⟩ => show win0_0.index t (1 : Fin 3) * 2048 + 1 * r.val = r.val; omega
  | ⟨2, _⟩ => show win0_0.index t (2 : Fin 3) * 1024 + 1 * k.val = k.val; omega

/-- The first weight's window at point `t`: entry `(k, j)` of its block is `w1[e, k, 512·s + j]` for the point's
    expert `e` and tile `s`. -/
theorem w1_apply (c : Dev nD) (t : Fin cfg0.N) (e s : Fin 8) (he : t.val / 8 = e.val) (hs : t.val % 8 = s.val)
    (k : Fin 1024) (j : Fin 512) :
    (iblk m c 1 t : Vec Ideal S1x1024x512 .f32) (ix3 (0 : Fin 1) k j)
      = m ((c : Thread nD τ).loc main_arg1) (ix3 e k (col s j)) := by
  obtain ⟨-, -, -, e0, e1, e2, -⟩ := idx_facts t
  show m ((c : Thread nD τ).loc main_arg1) (((cfg0.win 1).blk t).view.emb (ix3 (0 : Fin 1) k j)) = _
  refine congrArg (m ((c : Thread nD τ).loc main_arg1)) (funext fun a => Fin.ext ?_)
  match a with
  | ⟨0, _⟩ => show win0_1.index t (0 : Fin 3) * 1 + 1 * 0 = e.val; omega
  | ⟨1, _⟩ => show win0_1.index t (1 : Fin 3) * 1024 + 1 * k.val = k.val; omega
  | ⟨2, _⟩ => show win0_1.index t (2 : Fin 3) * 512 + 1 * j.val = 512 * s.val + j.val; omega

/-- The second weight's window at point `t`: entry `(j, h)` of its block is `w2[e, 512·s + j, h]`. -/
theorem w2_apply (c : Dev nD) (t : Fin cfg0.N) (e s : Fin 8) (he : t.val / 8 = e.val) (hs : t.val % 8 = s.val)
    (j : Fin 512) (h : Fin 1024) :
    (iblk m c 2 t : Vec Ideal S1x512x1024 .f32) (ix3 (0 : Fin 1) j h)
      = m ((c : Thread nD τ).loc main_arg2) (ix3 e (col s j) h) := by
  obtain ⟨-, -, -, -, -, -, e0, e1, e2⟩ := idx_facts t
  show m ((c : Thread nD τ).loc main_arg2) (((cfg0.win 2).blk t).view.emb (ix3 (0 : Fin 1) j h)) = _
  refine congrArg (m ((c : Thread nD τ).loc main_arg2)) (funext fun a => Fin.ext ?_)
  match a with
  | ⟨0, _⟩ => show win0_2.index t (0 : Fin 3) * 1 + 1 * 0 = e.val; omega
  | ⟨1, _⟩ => show win0_2.index t (1 : Fin 3) * 512 + 1 * j.val = 512 * s.val + j.val; omega
  | ⟨2, _⟩ => show win0_2.index t (2 : Fin 3) * 1024 + 1 * h.val = h.val; omega

end Cert.KernelIdeal.Blocks

end
-- ==== Proof.KernelSide.lean ====
/-
  The kernel's result array is the expert MLP of the specification.

  For one expert the kernel visits the 8 tiles of the hidden axis in order, keeping the [2048, 1024] output block
  resident: at the first tile it stores zero and adds that tile's term, at each later tile it adds the tile's term to
  what the tile before left, and after the eighth it writes the block back. So what the array ends holding at
  `(e, t, h)` is the fold of that run: zero plus the sum over the tiles `s < 8` of the term of point `8·e + s`.
  Each point's term, read through the point's input blocks, is the specification's sum over the tile's 512 hidden
  columns `512·s + j`; the sum over tiles and offsets is the sum over all 4096 columns. Only the grouping of a
  finite sum changes, so no finiteness of the inputs is used.
-/
import proofs.«115433_j21741124452873_2_alg».proof.Proof.Gen.KernelIdeal.Value
import proofs.«115433_j21741124452873_2_alg».proof.Proof.Payload
import proofs.«115433_j21741124452873_2_alg».proof.Proof.Blocks
import proofs.«115433_j21741124452873_2_alg».proof.Proof.Spec

noncomputable section

namespace Cert.KernelIdeal.KernelValue

open Cert.KernelIdeal Cert.KernelIdeal.Gen Idealize.ShloMosaic Idealize.ShloMosaic.TcCoe Idealize.SL.Sem
open Idealize.ShloMosaic.ValueIdx Cert.ExpertMlp Cert.KernelIdeal.Payload Cert.KernelIdeal.Blocks

variable (m : (ℓ : Loc nD τ sig) → Buf (Elt Ideal) ℓ)

/-- The three argument arrays as the launch finds them, as functions into the extended reals. -/
abbrev argX (c : Dev nD) : (⟨3, ![8, 2048, 1024]⟩ : Shape).Idx → EReal := m ((c : Thread nD τ).loc main_arg0)
abbrev argW1 (c : Dev nD) : (⟨3, ![8, 1024, 4096]⟩ : Shape).Idx → EReal := m ((c : Thread nD τ).loc main_arg1)
abbrev argW2 (c : Dev nD) : (⟨3, ![8, 4096, 1024]⟩ : Shape).Idx → EReal := m ((c : Thread nD τ).loc main_arg2)

/-- What grid point `n` adds to the resident output block, at the block's index `y`: the tile's term over the
    point's input blocks (zero past the grid, where it is never used). -/
def addend (c : Dev nD) (n : ℕ) (y : S1x2048x1024.Idx) : EReal :=
  if h : n < cfg0.N then
    tileTerm (iblk m c 0 ⟨n, h⟩) (iblk m c 1 ⟨n, h⟩) (iblk m c 2 ⟨n, h⟩) (y 1) (y 2)
  else 0

/-- Every index of a [1, 2048, 1024] block is `(0, t, h)`. -/
theorem blockIdx (y : S1x2048x1024.Idx) : ∃ (t : Fin 2048) (h : Fin 1024), y = ix3 (0 : Fin 1) t h := by
  refine ⟨y 1, y 2, funext fun a => ?_⟩
  match a with
  | ⟨0, _⟩ => exact Fin.ext (by show (y 0).val = 0; have : (y 0).val < 1 := (y 0).isLt; omega)
  | ⟨1, _⟩ => rfl
  | ⟨2, _⟩ => rfl

/-- The first point of an expert leaves zero plus its term. -/
theorem reset_apply (c : Dev nD) (n : ℕ) (h : n < cfg0.N) (y : S1x2048x1024.Idx) :
    Value.reset3 m c n h y = 0 + addend m c n y := by
  obtain ⟨t, hh, rfl⟩ := blockIdx y
  unfold Value.reset3 addend
  rw [dif_pos h]
  refine (pay2_apply (iblk m c 0 ⟨n, h⟩) (iblk m c 1 ⟨n, h⟩) (iblk m c 2 ⟨n, h⟩) (k0_pay1 (F := Ideal)) t hh).trans ?_
  rw [pay1_apply]

/-- Every later point adds its term to what the point before left. -/
theorem step_apply (c : Dev nD) (n : ℕ) (h : n < cfg0.N) (acc : Vec Ideal S1x2048x1024 .f32) (y : S1x2048x1024.Idx) :
    Value.step3 m c n h acc y = acc y + addend m c n y := by
  obtain ⟨t, hh, rfl⟩ := blockIdx y
  unfold Value.step3 addend
  rw [dif_pos h]
  exact pay2_apply (iblk m c 0 ⟨n, h⟩) (iblk m c 1 ⟨n, h⟩) (iblk m c 2 ⟨n, h⟩) acc t hh

/-- The term of tile `s` of expert `e`, read off the argument arrays. -/
theorem addend_eq (c : Dev nD) (e s : Fin 8) (t : Fin 2048) (h : Fin 1024) :
    addend m c (8 * e.val + s.val) (ix3 (0 : Fin 1) t h)
      = ∑ j : Fin 512,
          gelu (∑ k : Fin 1024, argX m c (ix3 e t k) * argW1 m c (ix3 e k (col s j))) * argW2 m c (ix3 e (col s j) h) := by
  have hN : cfg0.N = 64 := N_0
  have hlt : 8 * e.val + s.val < cfg0.N := by have := e.isLt; have := s.isLt; omega
  have he : (⟨8 * e.val + s.val, hlt⟩ : Fin cfg0.N).val / 8 = e.val := by show (8 * e.val + s.val) / 8 = e.val; have := s.isLt; omega
  have hs : (⟨8 * e.val + s.val, hlt⟩ : Fin cfg0.N).val % 8 = s.val := by show (8 * e.val + s.val) % 8 = s.val; have := s.isLt; omega
  unfold addend
  rw [dif_pos hlt]
  unfold tileTerm
  simp only [rows_apply m c ⟨8 * e.val + s.val, hlt⟩ e he, w1_apply m c ⟨8 * e.val + s.val, hlt⟩ e s he hs,
    w2_apply m c ⟨8 * e.val + s.val, hlt⟩ e s he hs]

/-- The kernel's result array, index by index, is the specification's MLP of the three argument arrays. -/
theorem G3_eq (c : Dev nD) (i : S8x2048x1024.Idx) :
    Value.G3 m c i
      = mlp (argX m c) (argW1 m c) (argW2 m c) (i 0) (i 1) (i 2) := by
  have hN : cfg0.N = 64 := N_0
  have h0 : (i 0).val < 8 := (i 0).isLt
  have h1 : (i 1).val < 2048 := (i 1).isLt
  have h2 : (i 2).val < 1024 := (i 2).isLt
  have hr : Value.run3Of i = (i 0).val := by
    show 1 * ((i 0).val / 1 - 0) + 1 * ((i 1).val / 2048 - 0) + 1 * ((i 2).val / 1024 - 0) = (i 0).val
    omega
  have hl : Value.loc3Of i = ix3 (0 : Fin 1) (i 1) (i 2) := by
    funext a; apply Fin.ext
    match a with
    | ⟨0, _⟩ => show (i 0).val % 1 = 0; omega
    | ⟨1, _⟩ => show (i 1).val % 2048 = (i 1).val; omega
    | ⟨2, _⟩ => show (i 2).val % 1024 = (i 2).val; omega
  have hb : 8 * Value.run3Of i + 7 < cfg0.N := by rw [hr]; omega
  unfold Value.G3
  rw [dif_pos hb]
  refine (Pipeline.accAt_add_apply (ι := S1x2048x1024.Idx) (β := EReal) (Value.reset3 m c) (Value.step3 m c) (fun _ => 0)
    (addend m c) (8 * Value.run3Of i) 7 (fun h y => reset_apply m c _ h y) (fun n h acc y _ _ => step_apply m c n h acc y)
    7 (Nat.le_refl 7) hb (Value.loc3Of i)).trans ?_
  rw [zero_add, Finset.sum_range, hl, hr]
  refine Eq.trans ?_ (mlp_eq_tiles (argX m c) (argW1 m c) (argW2 m c) (i 0) (i 1) (i 2)).symm
  exact Finset.sum_congr rfl fun s _ => addend_eq m c (i 0) s (i 1) (i 2)

end Cert.KernelIdeal.KernelValue

end
-- ==== Proof.lean ====
/-
  The certificate: a tiled expert MLP kernel against its plain reference, on the extended reals.

  Both programs take eight experts' inputs `x` [8, 2048, 1024] and weights `w1` [8, 1024, 4096], `w2` [8, 4096, 1024]
  and return, for each expert, `gelu (x · w1) · w2` with the tanh approximation of GELU. The reference computes the
  two batched products whole. The kernel cuts the 4096 hidden columns into 8 tiles of 512 and, for each expert, runs
  through the tiles keeping the [2048, 1024] output block resident: it zeroes the block at the first tile and at every
  tile adds `gelu (x · w1[:, tile]) · w2[tile, :]`.

  On the extended reals the two results are the same function of the arguments, index by index:
    * the first product contracts all 1024 input features inside one tile, so a tile's hidden activations ARE the
      reference's hidden activations at the tile's columns (the GELU is applied entrywise, with the same four
      constants and the same order of operations on both sides, and both programs' tanh is the same function);
    * the second product's sum over the 4096 hidden columns is the sum over the 8 tiles of the sums over each tile's
      512 columns, started from zero — a regrouping of a finite sum, valid in any commutative monoid, so also with
      infinite entries.
  No finiteness of the inputs is needed, and the precondition is never opened.

  The frames: each program terminates without fault and leaves its arguments unchanged; for the two idealized
  programs this is their value run with the result forgotten. The kernel's idealization rewrote nothing.
-/
import proofs.«115433_j21741124452873_2_alg».proof.Defs
import proofs.«115433_j21741124452873_2_alg».proof.Proof.Gen.Kernel.Frame
import proofs.«115433_j21741124452873_2_alg».proof.Proof.Gen.KernelIdeal.Value
import proofs.«115433_j21741124452873_2_alg».proof.Proof.Gen.Pre_finite_inputs
import proofs.«115433_j21741124452873_2_alg».proof.Proof.Gen.ReferenceIdeal.Run
import proofs.«115433_j21741124452873_2_alg».proof.Proof.RefSide
import proofs.«115433_j21741124452873_2_alg».proof.Proof.KernelSide
import Idealize.ShloMosaic.Adequacy
import Idealize.ShloMosaic.Init

noncomputable section

namespace Cert.Proof

open Idealize.ShloMosaic Idealize.SL.Sem

/-- The idealized kernel terminates without fault with its arguments unchanged: its value run, the result forgotten. -/
theorem frame_KernelIdeal : frame_KernelIdeal := fun m ρ _ =>
  (θ_run Cert.KernelIdeal.defs _ _).mono (fun _ h c => (h c).2) (Cert.KernelIdeal.Value.run (F := Ideal) m ρ)

/-- The idealized reference terminates without fault with its arguments unchanged: its run, the result forgotten. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the three arguments both programs end holding the same array: at every index
    `(e, t, h)` the reference's last stage and the kernel's folded output block are both
    `∑ f < 4096, gelu (∑ k < 1024, x[e,t,k] · w1[e,k,f]) · w2[e,f,h]`. -/
theorem algebraic_KernelIdeal_ReferenceIdeal : algebraic_KernelIdeal_ReferenceIdeal := by
  intro m ρ m' ρ' _ hagree
  refine ⟨fun c => Cert.KernelIdeal.Value.G3 m c, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v14_eq, (hagree c).1, (hagree c).2.1, (hagree c).2.2]
  funext i
  exact (Cert.ReferenceIdeal.RefValue.stage_eq_mlp _ _ _ i).trans (Cert.KernelIdeal.KernelValue.G3_eq m c i).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
